-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x128 : Shape := ⟨2, ![8, 128]⟩
abbrev S131072x128 : Shape := ⟨2, ![131072, 128]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x128 : S_.BroadcastsInDim S8x128 (![] : Fin 0 → Fin S8x128.rank)
  reducesTo_S8x128_S_d0_1 : S8x128.ReducesTo [0, 1] S_
  bcast_S_S131072x128 : S_.BroadcastsInDim S131072x128 (![] : Fin 0 → Fin S131072x128.rank)
  reducesTo_S131072x128_S_d0_1 : S131072x128.ReducesTo [0, 1] S_

variable [Facts]

def fn_part1 {F : FTy → Type} [FloatOps F] (main_v13 : IVec S_ 1) (main_v16 : IVec S131072x128 1) : IVec S_ 1 :=
  let main_c_5 : IVec S_ 1 := constantI S_ 1 1#1
  let main_v17 : IVec S_ 1 := (fun x v => Host.reduce IntOp.andi x v reducesTo_S131072x128_S_d0_1 h_S_) main_v16 main_c_5
  let main_v18 : IVec S_ 1 := andi main_v13 main_v17
  main_v18

def fn {F : FTy → Type} [FloatOps F] (main_arg0 : FVec F S8x2048x1024 .f32) (main_arg1 : FVec F S8x128 .f32) (main_arg2 : FVec F S131072x128 .f32) (main_arg3 : FVec F S131072x128 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x128 .f32 := Host.absf main_arg1
  let main_cst_0 : FVec F S_ .f32 := constant S_ .f32 0x7F800000#32
  let main_v5 : FVec F S8x128 .f32 := broadcastInDim S8x128 ![] bcast_S_S8x128 main_cst_0
  let main_v6 : IVec S8x128 1 := cmpf .olt main_v4 main_v5
  let main_c_1 : IVec S_ 1 := constantI S_ 1 1#1
  let main_v7 : IVec S_ 1 := (fun x v => Host.reduce IntOp.andi x v reducesTo_S8x128_S_d0_1 h_S_) main_v6 main_c_1
  let main_v8 : IVec S_ 1 := andi main_v3 main_v7
  let main_v9 : FVec F S131072x128 .f32 := Host.absf main_arg2
  let main_cst_2 : FVec F S_ .f32 := constant S_ .f32 0x7F800000#32
  let main_v10 : FVec F S131072x128 .f32 := broadcastInDim S131072x128 ![] bcast_S_S131072x128 main_cst_2
  let main_v11 : IVec S131072x128 1 := cmpf .olt main_v9 main_v10
  let main_c_3 : IVec S_ 1 := constantI S_ 1 1#1
  let main_v12 : IVec S_ 1 := (fun x v => Host.reduce IntOp.andi x v reducesTo_S131072x128_S_d0_1 h_S_) main_v11 main_c_3
  let main_v13 : IVec S_ 1 := andi main_v8 main_v12
  let main_v14 : FVec F S131072x128 .f32 := Host.absf main_arg3
  let main_cst_4 : FVec F S_ .f32 := constant S_ .f32 0x7F800000#32
  let main_v15 : FVec F S131072x128 .f32 := broadcastInDim S131072x128 ![] bcast_S_S131072x128 main_cst_4
  let main_v16 : IVec S131072x128 1 := cmpf .olt main_v14 main_v15
  fn_part1 (F := F) main_v13 main_v16
-- ==== Kernel.lean ====
abbrev S8x2048x1024 : Shape := ⟨3, ![8, 2048, 1024]⟩
abbrev S8x128 : Shape := ⟨2, ![8, 128]⟩
abbrev S131072x128 : Shape := ⟨2, ![131072, 128]⟩
abbrev S8x131072 : Shape := ⟨2, ![8, 131072]⟩
abbrev S8192x128 : Shape := ⟨2, ![8192, 128]⟩
abbrev S8x8192 : Shape := ⟨2, ![8, 8192]⟩
abbrev S8x1024x128 : Shape := ⟨3, ![8, 1024, 128]⟩
abbrev S8x128x1024 : Shape := ⟨3, ![8, 128, 1024]⟩
abbrev S1x1024x1024 : Shape := ⟨3, ![1, 1024, 1024]⟩
abbrev S1x1024x128 : Shape := ⟨3, ![1, 1024, 128]⟩
abbrev S1x128x1024 : Shape := ⟨3, ![1, 128, 1024]⟩
abbrev S1024x1024 : Shape := ⟨2, ![1024, 1024]⟩
abbrev S1024x128 : Shape := ⟨2, ![1024, 128]⟩
abbrev S128x1024 : Shape := ⟨2, ![128, 1024]⟩

abbrev nBuf : Space → Nat
  | .hbm => 9
  | .vmem => 17
  | .smem => 0
  | _ => 0

abbrev bufTy : (tb : Table) → Fin (tcTables nBuf tb) → BufTy
  | .hbm, ⟨0, _⟩ => ⟨S8x2048x1024, .f32⟩
  | .hbm, ⟨1, _⟩ => ⟨S8x128, .f32⟩
  | .hbm, ⟨2, _⟩ => ⟨S131072x128, .f32⟩
  | .hbm, ⟨3, _⟩ => ⟨S131072x128, .f32⟩
  | .hbm, ⟨4, _⟩ => ⟨S8x131072, .f32⟩
  | .hbm, ⟨5, _⟩ => ⟨S8x131072, .f32⟩
  | .hbm, ⟨6, _⟩ => ⟨S8x1024x128, .f32⟩
  | .hbm, ⟨7, _⟩ => ⟨S8x128x1024, .f32⟩
  | .hbm, ⟨8, _⟩ => ⟨S8x2048x1024, .f32⟩
  | .local _ .vmem, ⟨0, _⟩ => ⟨S8192x128, .f32⟩
  | .local _ .vmem, ⟨1, _⟩ => ⟨S8192x128, .f32⟩
  | .local _ .vmem, ⟨2, _⟩ => ⟨S8192x128, .f32⟩
  | .local _ .vmem, ⟨3, _⟩ => ⟨S8192x128, .f32⟩
  | .local _ .vmem, ⟨4, _⟩ => ⟨S8x128, .f32⟩
  | .local _ .vmem, ⟨5, _⟩ => ⟨S8x8192, .f32⟩
  | .local _ .vmem, ⟨6, _⟩ => ⟨S8x8192, .f32⟩
  | .local _ .vmem, ⟨7, _⟩ => ⟨S8x8192, .f32⟩
  | .local _ .vmem, ⟨8, _⟩ => ⟨S8x8192, .f32⟩
  | .local _ .vmem, ⟨9, _⟩ => ⟨S1x1024x1024, .f32⟩
  | .local _ .vmem, ⟨10, _⟩ => ⟨S1x1024x1024, .f32⟩
  | .local _ .vmem, ⟨11, _⟩ => ⟨S1x1024x128, .f32⟩
  | .local _ .vmem, ⟨12, _⟩ => ⟨S1x1024x128, .f32⟩
  | .local _ .vmem, ⟨13, _⟩ => ⟨S1x128x1024, .f32⟩
  | .local _ .vmem, ⟨14, _⟩ => ⟨S1x128x1024, .f32⟩
  | .local _ .vmem, ⟨15, _⟩ => ⟨S1x1024x1024, .f32⟩
  | .local _ .vmem, ⟨16, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x128x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S8x128_S8x128_0_0 : ∀ a, (![0, 0] : Fin 2 → Nat) a + S8x128.size a ≤ S8x128.size a
  h_S8x128 : 0 < S8x128.numel
  bitsLt_bf16_f32 : FTy.bits .bf16 < FTy.bits .f32
  inb_S8192x128_S8192x128_0_0 : ∀ a, (![0, 0] : Fin 2 → Nat) a + S8192x128.size a ≤ S8192x128.size a
  h_S8192x128 : 0 < S8192x128.numel
  inb_S8x8192_S8x8192_0_0 : ∀ a, (![0, 0] : Fin 2 → Nat) a + S8x8192.size a ≤ S8x8192.size a
  h_S8x8192 : 0 < S8x8192.numel
  shapeCasts_S8x131072_S8x1024x128 : S8x131072.ShapeCasts S8x1024x128
  shapeCasts_S8x131072_S8x128x1024 : S8x131072.ShapeCasts S8x128x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  shapeCasts_S1024x1024_S1x1024x1024 : S1024x1024.ShapeCasts S1x1024x1024
  dot_S8x128_S8192x128_S8x8192_1_1_0_0_n_n_wf : DotDims.WF S8x128 S8192x128 S8x8192 [1] [1] [0] [0] [] []
  dot_S1024x1024_S1024x128_S1024x128_1_0_0_1_n_n_wf : DotDims.WF S1024x1024 S1024x128 S1024x128 [1] [0] [0] [1] [] []
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S131072x128.size a
  hwx0_0 : ∀ i : grid0.Coords, EltTy.bits .f32 = 32 ∨ (Rect.block (s := S131072x128) S8192x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S131072x128.size a
  hwx0_1 : ∀ i : grid0.Coords, EltTy.bits .f32 = 32 ∨ (Rect.block (s := S131072x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S8x128.size a
  hwx0_2 : ∀ i : grid0.Coords, EltTy.bits .f32 = 32 ∨ (Rect.block (s := S8x128) S8x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x8192.size a ≤ S8x131072.size a
  hwx0_3 : ∀ i : grid0.Coords, EltTy.bits .f32 = 32 ∨ (Rect.block (s := S8x131072) S8x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x8192.size a ≤ S8x131072.size a
  hwx0_4 : ∀ i : grid0.Coords, EltTy.bits .f32 = 32 ∨ (Rect.block (s := S8x131072) S8x8192.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S8x2048x1024.size a
  hwx1_0 : ∀ i : grid1.Coords, EltTy.bits .f32 = 32 ∨ (Rect.block (s := S8x2048x1024) S1x1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S8x1024x128.size a
  hwx1_1 : ∀ i : grid1.Coords, EltTy.bits .f32 = 32 ∨ (Rect.block (s := S8x1024x128) S1x1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1024.size a ≤ S8x128x1024.size a
  hwx1_2 : ∀ i : grid1.Coords, EltTy.bits .f32 = 32 ∨ (Rect.block (s := S8x128x1024) S1x128x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x2048x1024.size a
  hwx1_3 : ∀ i : grid1.Coords, EltTy.bits .f32 = 32 ∨ (Rect.block (s := S8x2048x1024) S1x1024x1024.size (cc1_transform_3 i) (hinb1_3 i)).WholeWords (EltTy.packing .f32)

variable [Facts₀]

def dot_S8x128_S8192x128_S8x8192_1_1_0_0_n_n : DotDims S8x128 S8192x128 S8x8192 where
  lhsContracting := [1]
  rhsContracting := [1]
  lhsNonContracting := [0]
  rhsNonContracting := [0]
  lhsBatch := []
  rhsBatch := []
  wf := dot_S8x128_S8192x128_S8x8192_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg2) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S8192x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S8x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S8x8192.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S8x8192.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x128x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x128 : Shape := ⟨2, ![8, 128]⟩
abbrev S131072x128 : Shape := ⟨2, ![131072, 128]⟩
abbrev S8x131072 : Shape := ⟨2, ![8, 131072]⟩
abbrev S8x1024x128 : Shape := ⟨3, ![8, 1024, 128]⟩
abbrev S8x128x1024 : Shape := ⟨3, ![8, 128, 1024]⟩
abbrev S8x2048x128 : Shape := ⟨3, ![8, 2048, 128]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x128, .f32⟩
  | .hbm, ⟨2, _⟩ => ⟨S131072x128, .f32⟩
  | .hbm, ⟨3, _⟩ => ⟨S131072x128, .f32⟩
  | .hbm, ⟨4, _⟩ => ⟨S8x131072, .f32⟩
  | .hbm, ⟨5, _⟩ => ⟨S8x1024x128, .f32⟩
  | .hbm, ⟨6, _⟩ => ⟨S8x131072, .f32⟩
  | .hbm, ⟨7, _⟩ => ⟨S8x128x1024, .f32⟩
  | .hbm, ⟨8, _⟩ => ⟨S8x2048x128, .f32⟩
  | .hbm, ⟨9, _⟩ => ⟨S_, .f32⟩
  | .hbm, ⟨10, _⟩ => ⟨S8x2048x128, .f32⟩
  | .hbm, ⟨11, _⟩ => ⟨S8x2048x128, .f32⟩
  | .hbm, ⟨12, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  shapeCasts_S8x131072_S8x1024x128 : S8x131072.ShapeCasts S8x1024x128
  shapeCasts_S8x131072_S8x128x1024 : S8x131072.ShapeCasts S8x128x1024
  bcast_S_S8x2048x128 : S_.BroadcastsInDim S8x2048x128 (![] : Fin 0 → Fin S8x2048x128.rank)
  dot_S8x128_S131072x128_S8x131072_1_1_0_0_n_n_wf : DotDims.WF S8x128 S131072x128 S8x131072 [1] [1] [0] [0] [] []
  dot_S8x2048x1024_S8x1024x128_S8x2048x128_2_1_1_2_0_0_wf : DotDims.WF S8x2048x1024 S8x1024x128 S8x2048x128 [2] [1] [1] [2] [0] [0]
  dot_S8x2048x128_S8x128x1024_S8x2048x1024_2_1_1_2_0_0_wf : DotDims.WF S8x2048x128 S8x128x1024 S8x2048x1024 [2] [1] [1] [2] [0] [0]

variable [Facts₀]

def dot_S8x128_S131072x128_S8x131072_1_1_0_0_n_n : DotDims S8x128 S131072x128 S8x131072 where
  lhsContracting := [1]
  rhsContracting := [1]
  lhsNonContracting := [0]
  rhsNonContracting := [0]
  lhsBatch := []
  rhsBatch := []
  wf := dot_S8x128_S131072x128_S8x131072_1_1_0_0_n_n_wf
def dot_S8x2048x1024_S8x1024x128_S8x2048x128_2_1_1_2_0_0 : DotDims S8x2048x1024 S8x1024x128 S8x2048x128 where
  lhsContracting := [2]
  rhsContracting := [1]
  lhsNonContracting := [1]
  rhsNonContracting := [2]
  lhsBatch := [0]
  rhsBatch := [0]
  wf := dot_S8x2048x1024_S8x1024x128_S8x2048x128_2_1_1_2_0_0_wf
def dot_S8x2048x128_S8x128x1024_S8x2048x1024_2_1_1_2_0_0 : DotDims S8x2048x128 S8x128x1024 S8x2048x1024 where
  lhsContracting := [2]
  rhsContracting := [1]
  lhsNonContracting := [1]
  rhsNonContracting := [2]
  lhsBatch := [0]
  rhsBatch := [0]
  wf := dot_S8x2048x128_S8x128x1024_S8x2048x1024_2_1_1_2_0_0_wf

class Facts : Prop extends Facts₀ where

variable [Facts]
-- ==== Proof.Spec.lean ====
/-
  What both programs compute, written once as a function of the four argument arrays.

  The arguments are the activations `x : [8, 2048, 1024]`, one key per sample `key : [8, 128]`, and two weight
  tables `Td, Tu : [131072, 128]`.  Each sample `b` first generates its own flat weight rows

      W[b, p] = ∑ κ < 128, key[b, κ] · T[p, κ]            (p < 131072),

  one from each table.  The row generated from `Td` is cut into the down-projection `D[b, d, l] = W[b, 128·d + l]`
  (`d < 1024`, `l < 128`), the row generated from `Tu` into the up-projection `U[b, l, o] = W[b, 1024·l + o]`
  (`o < 1024`).  Then

      h[b, s, l]   = max (∑ d < 1024, x[b, s, d] · D[b, d, l]) 0,
      out[b, s, o] = ∑ l < 128, h[b, s, l] · U[b, l, o].

  Everything is over the extended reals; no law beyond the definitions is used, so nothing here needs the inputs
  to be finite.  The zero of the rectifier is kept as the float word `0x00000000` read at the ideal instance, the
  same word in both programs.
-/
import Idealize.ShloMosaic.Lib.ValueIdx
import Idealize.ShloMosaic.PureOps.Ideal

noncomputable section

namespace Cert.HyperMlp

open Idealize.ShloMosaic Idealize.ShloMosaic.ValueIdx

/-- Activations and result. -/
abbrev SX : Shape := ⟨3, ![8, 2048, 1024]⟩
/-- One key per sample. -/
abbrev SK : Shape := ⟨2, ![8, 128]⟩
/-- A weight table. -/
abbrev ST : Shape := ⟨2, ![131072, 128]⟩
/-- The flat weight rows generated per sample. -/
abbrev SW : Shape := ⟨2, ![8, 131072]⟩
/-- The down-projection. -/
abbrev SD : Shape := ⟨3, ![8, 1024, 128]⟩
/-- The up-projection. -/
abbrev SU : Shape := ⟨3, ![8, 128, 1024]⟩
/-- The hidden activations. -/
abbrev SH : Shape := ⟨3, ![8, 2048, 128]⟩

/-- The rectifier's zero: the float word `0x00000000` at the ideal instance. -/
abbrev zero : EReal := Ideal.ofBits .f32 0x00000000#32

/-- The flat weights sample `b` generates from a table: `W[b, p] = ∑ κ, key[b, κ] · T[p, κ]`. -/
def weights (key : SK.Idx → EReal) (T : ST.Idx → EReal) : SW.Idx → EReal :=
  fun i => ∑ κ : Fin 128, key (ix2 (i 0) κ) * T (ix2 (i 1) κ)

/-- Position `128·d + l` of a flat row. -/
abbrev downPos (d : Fin 1024) (l : Fin 128) : Fin 131072 := ⟨d.val * 128 + l.val, by omega⟩
/-- Position `1024·l + o` of a flat row. -/
abbrev upPos (l : Fin 128) (o : Fin 1024) : Fin 131072 := ⟨l.val * 1024 + o.val, by omega⟩

/-- The flat rows cut into down-projections: `D[b, d, l] = W[b, 128·d + l]`. -/
def down (W : SW.Idx → EReal) : SD.Idx → EReal := fun i => W (ix2 (i 0) (downPos (i 1) (i 2)))

/-- The flat rows cut into up-projections: `U[b, l, o] = W[b, 1024·l + o]`. -/
def up (W : SW.Idx → EReal) : SU.Idx → EReal := fun i => W (ix2 (i 0) (upPos (i 1) (i 2)))

/-- The rectified hidden activations: `h[b, s, l] = max (∑ d, x[b, s, d] · D[b, d, l]) 0`. -/
def hidden (x : SX.Idx → EReal) (D : SD.Idx → EReal) : SH.Idx → EReal :=
  fun i => max (∑ d : Fin 1024, x (ix3 (i 0) (i 1) d) * D (ix3 (i 0) d (i 2))) zero

/-- The result: `out[b, s, o] = ∑ l, h[b, s, l] · U[b, l, o]`. -/
def output (h : SH.Idx → EReal) (U : SU.Idx → EReal) : SX.Idx → EReal :=
  fun i => ∑ l : Fin 128, h (ix3 (i 0) (i 1) l) * U (ix3 (i 0) l (i 2))

/-- The whole computation, as one function of the argument arrays. -/
def result (x : SX.Idx → EReal) (key : SK.Idx → EReal) (Td Tu : ST.Idx → EReal) : SX.Idx → EReal :=
  output (hidden x (down (weights key Td))) (up (weights key Tu))

end Cert.HyperMlp

end
-- ==== Proof.RefIsSpec.lean ====
/-
  The reference program computes the specification.

  Stage by stage, at the ideal instance (extended reals):

    * the two contractions of the key with a weight table are the flat weight rows
      W[b, p] = ∑ κ, key[b, κ] · T[p, κ];
    * the two reshapes of a flat row read it at the row-major position of the index: position
      (b·1024 + d)·128 + l of an [8, 131072] array is row b, column 128·d + l, and position
      (b·128 + l)·1024 + o is row b, column 1024·l + o, so the reshapes are the down- and the up-projection;
    * the batched contraction of the activations with the down-projection followed by the maximum against
      the broadcast zero word is the rectified hidden layer;
    * the batched contraction of the hidden layer with the up-projection is the result.

  Each stage is read at one index by the generated reading lemma of that stage and compared with the
  specification's definition there; the only arithmetic is the division and remainder by 131072 of the
  row-major positions above.
-/
import proofs.«158786_j29686813950417_1_alg».proof.Proof.Gen.ReferenceIdeal.Read
import proofs.«158786_j29686813950417_1_alg».proof.Proof.Spec

noncomputable section

namespace Cert.ReferenceIdeal.RefValue

open Cert.ReferenceIdeal Cert.ReferenceIdeal.Read Cert.HyperMlp
open Idealize.ShloMosaic Idealize.ShloMosaic.ValueIdx

/-- The contraction of the key with the first table is the flat weight rows: both operand indices of the
    contraction are the index pairs `(b, κ)` and `(p, κ)` of the specification's sum. -/
theorem v0_eq (key : (⟨S8x128, .f32⟩ : BufTy).Contents (Elt Ideal))
    (T : (⟨S131072x128, .f32⟩ : BufTy).Contents (Elt Ideal)) :
    val_main_v0 (F := Ideal) key T = weights key T := by
  funext i
  rw [val_main_v0_apply]
  unfold weights
  refine Finset.sum_congr rfl fun k _ => ?_
  have hl : lidx_main_v0 i k = ix2 (i 0) k :=
    funext fun a => Fin.ext (by match a with | ⟨0, _⟩ => rfl | ⟨1, _⟩ => rfl)
  have hr : ridx_main_v0 i k = ix2 (i 1) k :=
    funext fun a => Fin.ext (by match a with | ⟨0, _⟩ => rfl | ⟨1, _⟩ => rfl)
  rw [hl, hr]
  rfl

/-- The same for the contraction of the key with the second table. -/
theorem v2_eq (key : (⟨S8x128, .f32⟩ : BufTy).Contents (Elt Ideal))
    (T : (⟨S131072x128, .f32⟩ : BufTy).Contents (Elt Ideal)) :
    val_main_v2 (F := Ideal) key T = weights key T := by
  funext i
  rw [val_main_v2_apply]
  unfold weights
  refine Finset.sum_congr rfl fun k _ => ?_
  have hl : lidx_main_v2 i k = ix2 (i 0) k :=
    funext fun a => Fin.ext (by match a with | ⟨0, _⟩ => rfl | ⟨1, _⟩ => rfl)
  have hr : ridx_main_v2 i k = ix2 (i 1) k :=
    funext fun a => Fin.ext (by match a with | ⟨0, _⟩ => rfl | ⟨1, _⟩ => rfl)
  rw [hl, hr]
  rfl

/-- Row-major position `(b·1024 + d)·128 + l` of an `[8, 131072]` array is row `b`, column `128·d + l`. -/
theorem idx_v1_eq (i : S8x1024x128.Idx) : idx_main_v1 i = ix2 (i 0) (downPos (i 1) (i 2)) := by
  have h0 : (i 0).val < 8 := (i 0).isLt
  have h1 : (i 1).val < 1024 := (i 1).isLt
  have h2 : (i 2).val < 128 := (i 2).isLt
  funext a
  match a with
  | ⟨0, _⟩ =>
    refine Fin.ext ?_
    show (((i 0).val * 1024 + (i 1).val) * 128 + (i 2).val) / 131072 = (i 0).val
    omega
  | ⟨1, _⟩ =>
    refine Fin.ext ?_
    show (((i 0).val * 1024 + (i 1).val) * 128 + (i 2).val) % 131072 = (i 1).val * 128 + (i 2).val
    omega

/-- Row-major position `(b·128 + l)·1024 + o` of an `[8, 131072]` array is row `b`, column `1024·l + o`. -/
theorem idx_v3_eq (i : S8x128x1024.Idx) : idx_main_v3 i = ix2 (i 0) (upPos (i 1) (i 2)) := by
  have h0 : (i 0).val < 8 := (i 0).isLt
  have h1 : (i 1).val < 128 := (i 1).isLt
  have h2 : (i 2).val < 1024 := (i 2).isLt
  funext a
  match a with
  | ⟨0, _⟩ =>
    refine Fin.ext ?_
    show (((i 0).val * 128 + (i 1).val) * 1024 + (i 2).val) / 131072 = (i 0).val
    omega
  | ⟨1, _⟩ =>
    refine Fin.ext ?_
    show (((i 0).val * 128 + (i 1).val) * 1024 + (i 2).val) % 131072 = (i 1).val * 1024 + (i 2).val
    omega

/-- The first reshape is the down-projection of the flat weight rows. -/
theorem v1_eq (key : (⟨S8x128, .f32⟩ : BufTy).Contents (Elt Ideal))
    (T : (⟨S131072x128, .f32⟩ : BufTy).Contents (Elt Ideal)) :
    val_main_v1 (F := Ideal) key T = down (weights key T) := by
  funext i
  rw [val_main_v1_apply, v0_eq, idx_v1_eq]
  rfl

/-- The second reshape is the up-projection of the flat weight rows. -/
theorem v3_eq (key : (⟨S8x128, .f32⟩ : BufTy).Contents (Elt Ideal))
    (T : (⟨S131072x128, .f32⟩ : BufTy).Contents (Elt Ideal)) :
    val_main_v3 (F := Ideal) key T = up (weights key T) := by
  funext i
  rw [val_main_v3_apply, v2_eq, idx_v3_eq]
  rfl

/-- The contraction of the activations with the down-projection, rectified against the broadcast zero word,
    is the hidden layer. -/
theorem v5_eq (x : (⟨S8x2048x1024, .f32⟩ : BufTy).Contents (Elt Ideal))
    (key : (⟨S8x128, .f32⟩ : BufTy).Contents (Elt Ideal))
    (T : (⟨S131072x128, .f32⟩ : BufTy).Contents (Elt Ideal)) :
    val_main_v5 (F := Ideal) x key T = HyperMlp.hidden x (down (weights key T)) := by
  funext i
  rw [val_main_v5_apply, val_main_v4_apply, val_main_call0_v0_apply, val_main_call0_cst_apply, v1_eq]
  unfold HyperMlp.hidden
  show max _ _ = max _ _
  refine congrArg (fun s => max s zero) ?_
  refine Finset.sum_congr rfl fun k _ => ?_
  have hl : lidx_main_v4 i k = ix3 (i 0) (i 1) k :=
    funext fun a => Fin.ext (by match a with | ⟨0, _⟩ => rfl | ⟨1, _⟩ => rfl | ⟨2, _⟩ => rfl)
  have hr : ridx_main_v4 i k = ix3 (i 0) k (i 2) :=
    funext fun a => Fin.ext (by match a with | ⟨0, _⟩ => rfl | ⟨1, _⟩ => rfl | ⟨2, _⟩ => rfl)
  rw [hl, hr]
  rfl

/-- The reference's last stage is the specification. -/
theorem ref_eq (x : (⟨Cert.ReferenceIdeal.S8x2048x1024, .f32⟩ : BufTy).Contents (Elt Ideal))
    (key : (⟨Cert.ReferenceIdeal.S8x128, .f32⟩ : BufTy).Contents (Elt Ideal))
    (Td Tu : (⟨Cert.ReferenceIdeal.S131072x128, .f32⟩ : BufTy).Contents (Elt Ideal)) :
    Cert.ReferenceIdeal.Read.val_main_v6 (F := Ideal) x key Td Tu = Cert.HyperMlp.result x key Td Tu := by
  funext i
  rw [val_main_v6_apply, v5_eq, v3_eq]
  unfold result output
  refine Finset.sum_congr rfl fun k _ => ?_
  have hl : lidx_main_v6 i k = ix3 (i 0) (i 1) k :=
    funext fun a => Fin.ext (by match a with | ⟨0, _⟩ => rfl | ⟨1, _⟩ => rfl | ⟨2, _⟩ => rfl)
  have hr : ridx_main_v6 i k = ix3 (i 0) k (i 2) :=
    funext fun a => Fin.ext (by match a with | ⟨0, _⟩ => rfl | ⟨1, _⟩ => rfl | ⟨2, _⟩ => rfl)
  rw [hl, hr]
  rfl

end Cert.ReferenceIdeal.RefValue

end
-- ==== Proof.Run.lean ====
/-
  The kernel program is two pallas_calls with two reshapes between them.  Its generated frame certificate follows
  the buffer contents through the program as a fold: `W0` at launch, `W1` after the weight-generation call,
  `W2` after the two reshapes, `W3` after the main call.  The generated frame only reads the four argument arrays
  back out of `W3`.  Here the same run is read once more at the result buffer: after every weakly fair execution
  the result array holds `W3` at `main_v3`, which is what the main call's write-backs leave in it.
-/
import proofs.«158786_j29686813950417_1_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result buffer is the main call's output window, so after the run it holds what that call's sixteen
    write-backs leave: the fold `arrAt` of the main call's proof data, taken at the contents `V2` the call is
    entered with. -/
theorem W3_result (c : Dev nD) :
    W3 m ρ c (Proc.devRef .tc main_v3) = (dat1 (V2 m ρ) c).arrAt 3 cfg1.N :=
  W3_arr m ρ c 3

set_option backward.isDefEq.respectTransparency.types false in
/-- Every weakly fair execution of the kernel program terminates without a fault; the result array then holds the
    last boundary's contents `W3` at `main_v3`, and the four argument arrays are as launched. -/
theorem run : θ_run defs (onTc (τ := τ) (main (F := F))) ⟨m, fun _ => 0, ρ⟩ (fun r => ∀ c : Dev nD,
      r.2.mem ((c.tc : Thread nD τ).loc main_v3) = W3 m ρ c (Proc.devRef .tc main_v3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v3 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c)⟩)

end Cert.KernelIdeal.Result

end
-- ==== Proof.LibContract.lean ====
/-
  A matrix product read at one result index.

  At the ideal instance a `tpu.matmul` into a zero accumulator is, at a result index `j`, the sum over the
  contraction index of the left operand times the right operand, each read where the dimension numbers send
  `(j, k)`.  When the contraction runs over a single axis of extent `n` the contraction index is one number
  `k < n`, and the sum becomes a plain sum over `Fin n`.  The lemma below states this once for any dimension
  numbers, the two families of operand indices being supplied by the caller.
-/
import Idealize.ShloMosaic.Lib.ValueIdx
import Idealize.ShloMosaic.PureOps.Ideal.Laws

noncomputable section

namespace Cert.LibContract

open Idealize.ShloMosaic

/-- A product into the zero accumulator, contracted over one axis of extent `n`, at the result index `j`:
    if the dimension numbers send `(j, k)` to the operand indices `li k` and `ri k`, the entry is
    `∑ k < n, lhs (li k) * rhs (ri k)`. -/
theorem matmul_zero_single {sl sr so : Shape} {φ₁ φ₂ : FTy} (d : DotDims sl sr so) (prec : Option ContractPrecision)
    (n : Nat) (hr : d.contr.rank = 1) (hs : d.contr.size ⟨0, by omega⟩ = n)
    (lhs : FVec Ideal sl φ₁) (rhs : FVec Ideal sr φ₂) (j : so.Idx) (li : Fin n → sl.Idx) (ri : Fin n → sr.Idx)
    (hl : ∀ k, d.lhsIdx j ((ValueIdx.contrEquiv1 d n hr hs).symm k) = li k)
    (hrr : ∀ k, d.rhsIdx j ((ValueIdx.contrEquiv1 d n hr hs).symm k) = ri k) :
    matmul d prec lhs rhs (constant so .f32 0x00000000#32) j = ∑ k : Fin n, lhs (li k) * rhs (ri k) := by
  show FloatOps.matmul d prec lhs rhs (constant so .f32 0x00000000#32) j = _
  rw [Ideal.matmul_constant_zero_apply, ← Equiv.sum_comp (ValueIdx.contrEquiv1 d n hr hs).symm]
  exact Finset.sum_congr rfl fun k _ => by rw [hl k, hrr k]

end Cert.LibContract

end
-- ==== Proof.GenCall.lean ====
/-
  The first pallas_call: the flat weight rows.

  Its grid has 16 points.  At point `t` it stages rows `8192·t … 8192·t + 8191` of each weight table and the whole
  key array, and writes the `[8, 8192]` block of columns `8192·t …` of each of its two results.  The body is one
  matrix product per result, `key · Tᵀ` contracted over the 128 key coordinates, into a zero accumulator (the
  rounding of the operands to bf16 is the identity at the ideal instance).  So the entry `(b, q)` of the block
  written at point `t` is `∑ κ, key[b, κ] · T[8192·t + q, κ]`, which is the entry `(b, 8192·t + q)` of the flat
  weights of `Spec.lean`; the sixteen blocks tile the `[8, 131072]` result, so after the call each result array
  is `weights key T` for its table.  Everything is stated at arbitrary contents `V` of the buffers when the call
  is entered.
-/
import proofs.«158786_j29686813950417_1_alg».proof.Proof.Gen.KernelIdeal.Frame
import proofs.«158786_j29686813950417_1_alg».proof.Proof.Spec
import proofs.«158786_j29686813950417_1_alg».proof.Proof.LibContract
import Idealize.ShloMosaic.Lib.Pipeline.Value

set_option maxRecDepth 16384

noncomputable section

namespace Cert.KernelIdeal.GenCall

open Cert.KernelIdeal Cert.KernelIdeal.Gen Cert.HyperMlp
open Idealize.ShloMosaic Idealize.ShloMosaic.TcCoe Idealize.ShloMosaic.ValueIdx Idealize.SL.Sem
open Idealize.ShloMosaic.Pipeline (Dat)

/-! ## The body's product at an entry -/

/-- The product's left operand is read at the result's row … -/
theorem lhs_row (i : S8x8192.Idx) (q : dot_S8x128_S8192x128_S8x8192_1_1_0_0_n_n.contr.Idx) :
    (dot_S8x128_S8192x128_S8x8192_1_1_0_0_n_n.lhsIdx i q 0).val = (i 0).val := by
  unfold DotDims.lhsIdx
  rw [dif_neg (show ¬(0 : Fin S8x128.rank) ∈ dot_S8x128_S8192x128_S8x8192_1_1_0_0_n_n.lhsBatch by decide), dif_pos (show (0 : Fin S8x128.rank) ∈ dot_S8x128_S8192x128_S8x8192_1_1_0_0_n_n.lhsNonContracting by decide)]
  rfl
/-- … and at the contraction index; -/
theorem lhs_contr (i : S8x8192.Idx) (q : dot_S8x128_S8192x128_S8x8192_1_1_0_0_n_n.contr.Idx) :
    (dot_S8x128_S8192x128_S8x8192_1_1_0_0_n_n.lhsIdx i q 1).val = (q ⟨0, by decide⟩).val :=
  dot_S8x128_S8192x128_S8x8192_1_1_0_0_n_n.lhsIdx_val_of_single rfl i q
/-- the right operand at the result's column … -/
theorem rhs_row (i : S8x8192.Idx) (q : dot_S8x128_S8192x128_S8x8192_1_1_0_0_n_n.contr.Idx) :
    (dot_S8x128_S8192x128_S8x8192_1_1_0_0_n_n.rhsIdx i q 0).val = (i 1).val := by
  unfold DotDims.rhsIdx
  rw [dif_neg (show ¬(0 : Fin S8192x128.rank) ∈ dot_S8x128_S8192x128_S8x8192_1_1_0_0_n_n.rhsBatch by decide), dif_pos (show (0 : Fin S8192x128.rank) ∈ dot_S8x128_S8192x128_S8x8192_1_1_0_0_n_n.rhsNonContracting by decide)]
  rfl
/-- … and at the contraction index. -/
theorem rhs_contr (i : S8x8192.Idx) (q : dot_S8x128_S8192x128_S8x8192_1_1_0_0_n_n.contr.Idx) :
    (dot_S8x128_S8192x128_S8x8192_1_1_0_0_n_n.rhsIdx i q 1).val = (q ⟨0, by decide⟩).val :=
  dot_S8x128_S8192x128_S8x8192_1_1_0_0_n_n.rhsIdx_val_of_single rfl i q

/-- Entry `(b, q)` of the block the body stores: `∑ κ, key[b, κ] · T[q, κ]` over the staged key array and table rows. -/
theorem block_entry (key : Vec Ideal S8x128 .f32) (T : Vec Ideal S8192x128 .f32) (b : Fin 8) (q : Fin 8192) :
    k0_pay2 (F := Ideal) key T (ix2 b q) = ∑ κ : Fin 128, key (ix2 b κ) * T (ix2 q κ) := by
  unfold k0_pay2 k0_pay1
  show matmul dot_S8x128_S8192x128_S8x8192_1_1_0_0_n_n none (truncf (F := Ideal) .bf16 key bitsLt_bf16_f32) (truncf (F := Ideal) .bf16 T bitsLt_bf16_f32)
      (constant S8x8192 .f32 0x00000000#32) (ix2 b q) = _
  refine (LibContract.matmul_zero_single dot_S8x128_S8192x128_S8x8192_1_1_0_0_n_n none 128 rfl rfl (truncf (F := Ideal) .bf16 key bitsLt_bf16_f32)
    (truncf (F := Ideal) .bf16 T bitsLt_bf16_f32) (ix2 b q) (fun κ => ix2 b κ) (fun κ => ix2 q κ) (fun κ => ?_) (fun κ => ?_)).trans rfl
  · refine funext fun a => Fin.ext ?_
    match a with
    | ⟨0, _⟩ => exact lhs_row _ _
    | ⟨1, _⟩ => exact (lhs_contr _ _).trans (ValueIdx.contrEquiv1_symm_val dot_S8x128_S8192x128_S8x8192_1_1_0_0_n_n 128 rfl rfl κ)
  · refine funext fun a => Fin.ext ?_
    match a with
    | ⟨0, _⟩ => exact rhs_row _ _
    | ⟨1, _⟩ => exact (rhs_contr _ _).trans (ValueIdx.contrEquiv1_symm_val dot_S8x128_S8192x128_S8x8192_1_1_0_0_n_n 128 rfl rfl κ)

/-- The second result's payload is the same product, of the other table's rows. -/
theorem pay3_eq (key : Vec Ideal S8x128 .f32) (T : Vec Ideal S8192x128 .f32) :
    k0_pay3 (F := Ideal) key T = k0_pay2 (F := Ideal) key T := rfl

/-- One point of the grid, over plain arrays: if the staged key block `kb` is the key array and the staged table block
    `Tb` is rows `8192·t …` of the table `T`, then the stored block at `j = (b, q)` is the flat weights at
    `i = (b, 8192·t + q)`. -/
theorem point_entry (key : SK.Idx → EReal) (T : ST.Idx → EReal) (t : ℕ)
    (kb : Vec Ideal S8x128 .f32) (Tb : Vec Ideal S8192x128 .f32)
    (hk : ∀ (b : Fin 8) (κ : Fin 128), kb (ix2 b κ) = key (ix2 b κ))
    (hT : ∀ (q : Fin 8192) (κ : Fin 128) (p : Fin 131072), p.val = t * 8192 + q.val → Tb (ix2 q κ) = T (ix2 p κ))
    (j : S8x8192.Idx) (i : SW.Idx) (hi0 : (i 0).val = (j 0).val) (hi1 : (i 1).val = t * 8192 + (j 1).val) :
    k0_pay2 (F := Ideal) kb Tb j = weights key T i := by
  obtain ⟨b, q, rfl⟩ : ∃ (b : Fin 8) (q : Fin 8192), j = ix2 b q := ⟨j 0, j 1, eq_ix2 j⟩
  obtain ⟨b', p, rfl⟩ : ∃ (b' : Fin 8) (p : Fin 131072), i = ix2 b' p := ⟨i 0, i 1, eq_ix2 i⟩
  obtain rfl : b' = b := Fin.ext hi0
  rw [block_entry]
  show _ = ∑ κ : Fin 128, key (ix2 b' κ) * T (ix2 p κ)
  exact Finset.sum_congr rfl fun κ _ => by rw [hk b' κ, hT q κ p hi1]

/-! ## The call, at arbitrary entry contents -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the sixteen points: a table's block index is `(t, 0)`, the key array's `(0, 0)`,
    a result's `(0, t)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The staged key block is the key array. -/
theorem key_block (c : Dev nD) (t : Fin cfg0.N) (b : Fin 8) (κ : Fin 128) :
    (iblk0 V c 2 t : Vec Ideal S8x128 .f32) (ix2 b κ) = (V c main_arg1 : S8x128.Idx → EReal) (ix2 b κ) := by
  obtain ⟨-, -, -, -, e0, e1, -⟩ := idx_facts t
  unfold iblk0
  rw [View.read_apply]
  show (V c main_arg1 : S8x128.Idx → EReal) (((cfg0.win 2).blk t).view.emb (ix2 b κ)) = _
  refine congrArg (V c main_arg1 : S8x128.Idx → EReal) (funext fun a => Fin.ext ?_)
  match a with
  | ⟨0, _⟩ => show win0_2.index t (0 : Fin 2) * 8 + 1 * b.val = b.val; omega
  | ⟨1, _⟩ => show win0_2.index t (1 : Fin 2) * 128 + 1 * κ.val = κ.val; omega

/-- The staged block of the first table is its rows `8192·t …`. -/
theorem down_table_block (c : Dev nD) (t : Fin cfg0.N) (q : Fin 8192) (κ : Fin 128) (p : Fin 131072)
    (hp : p.val = t.val * 8192 + q.val) :
    (iblk0 V c 0 t : Vec Ideal S8192x128 .f32) (ix2 q κ) = (V c main_arg2 : S131072x128.Idx → EReal) (ix2 p κ) := by
  obtain ⟨e0, e1, -⟩ := idx_facts t
  unfold iblk0
  rw [View.read_apply]
  show (V c main_arg2 : S131072x128.Idx → EReal) (((cfg0.win 0).blk t).view.emb (ix2 q κ)) = _
  refine congrArg (V c main_arg2 : S131072x128.Idx → EReal) (funext fun a => Fin.ext ?_)
  match a with
  | ⟨0, _⟩ => show win0_0.index t (0 : Fin 2) * 8192 + 1 * q.val = p.val; omega
  | ⟨1, _⟩ => show win0_0.index t (1 : Fin 2) * 128 + 1 * κ.val = κ.val; omega

/-- The staged block of the second table is its rows `8192·t …`. -/
theorem up_table_block (c : Dev nD) (t : Fin cfg0.N) (q : Fin 8192) (κ : Fin 128) (p : Fin 131072)
    (hp : p.val = t.val * 8192 + q.val) :
    (iblk0 V c 1 t : Vec Ideal S8192x128 .f32) (ix2 q κ) = (V c main_arg3 : S131072x128.Idx → EReal) (ix2 p κ) := by
  obtain ⟨-, -, e0, e1, -⟩ := idx_facts t
  unfold iblk0
  rw [View.read_apply]
  show (V c main_arg3 : S131072x128.Idx → EReal) (((cfg0.win 1).blk t).view.emb (ix2 q κ)) = _
  refine congrArg (V c main_arg3 : S131072x128.Idx → EReal) (funext fun a => Fin.ext ?_)
  match a with
  | ⟨0, _⟩ => show win0_1.index t (0 : Fin 2) * 8192 + 1 * q.val = p.val; omega
  | ⟨1, _⟩ => show win0_1.index t (1 : Fin 2) * 128 + 1 * κ.val = κ.val; omega

/-- What point `t` writes back to the first result is block `t` of the flat weights of the first table. -/
theorem flushed_down (c : Dev nD) (t : Fin cfg0.N) :
    (dat0 V c).flushed 3 t = ((cfg0.win 3).blk t).view.read (Elt Ideal) (weights (V c main_arg1) (V c main_arg2)) := by
  show (cfg0.win 3).cut (grid0.coords t) ((dat0 V c).after 3 t) = _
  rw [after0_3]
  unfold out0_3
  rw [View.canon_unit_zero hz]
  simp only [View.ld_unit_zero (S := S8x128) hz, View.ld_unit_zero (S := S8192x128) hz]
  obtain ⟨-, -, -, -, -, -, e0, e1, -⟩ := idx_facts t
  funext j
  refine point_entry (V c main_arg1) (V c main_arg2) t.val (iblk0 V c 2 t) (iblk0 V c 0 t)
    (key_block V c t) (down_table_block V c t) j (((cfg0.win 3).blk t).view.emb j) ?_ ?_
  · show win0_3.index t (0 : Fin 2) * 8 + 1 * (j 0).val = (j 0).val; omega
  · show win0_3.index t (1 : Fin 2) * 8192 + 1 * (j 1).val = t.val * 8192 + (j 1).val; omega

/-- What point `t` writes back to the second result is block `t` of the flat weights of the second table. -/
theorem flushed_up (c : Dev nD) (t : Fin cfg0.N) :
    (dat0 V c).flushed 4 t = ((cfg0.win 4).blk t).view.read (Elt Ideal) (weights (V c main_arg1) (V c main_arg3)) := by
  show (cfg0.win 4).cut (grid0.coords t) ((dat0 V c).after 4 t) = _
  rw [after0_4]
  unfold out0_4
  rw [View.canon_unit_zero hz]
  simp only [View.ld_unit_zero (S := S8x128) hz, View.ld_unit_zero (S := S8192x128) hz, pay3_eq]
  obtain ⟨-, -, -, -, -, -, -, -, e0, e1⟩ := idx_facts t
  funext j
  refine point_entry (V c main_arg1) (V c main_arg3) t.val (iblk0 V c 2 t) (iblk0 V c 1 t)
    (key_block V c t) (up_table_block V c t) j (((cfg0.win 4).blk t).view.emb j) ?_ ?_
  · show win0_4.index t (0 : Fin 2) * 8 + 1 * (j 0).val = (j 0).val; omega
  · show win0_4.index t (1 : Fin 2) * 8192 + 1 * (j 1).val = t.val * 8192 + (j 1).val; omega

/-- An index of a result array is in point `t`'s block iff each coordinate is in the block's range. -/
theorem mem_blk_down (t : Fin cfg0.N) (i : S8x131072.Idx) :
    i ∈ ((cfg0.win 3).blk t).view.set ↔ ∀ a : Fin 2, win0_3.index t a * S8x8192.size a ≤ (i a).val ∧ (i a).val < win0_3.index t a * S8x8192.size a + S8x8192.size a := by
  show i ∈ ((View.whole main_v0_0).slice (win0_3.rect t)).set ↔ _
  rw [View.set_slice_whole, Rect.mem_set_unit]
  exact Iff.rfl
theorem mem_blk_up (t : Fin cfg0.N) (i : S8x131072.Idx) :
    i ∈ ((cfg0.win 4).blk t).view.set ↔ ∀ a : Fin 2, win0_4.index t a * S8x8192.size a ≤ (i a).val ∧ (i a).val < win0_4.index t a * S8x8192.size a + S8x8192.size a := by
  show i ∈ ((View.whole main_v0_1).slice (win0_4.rect t)).set ↔ _
  rw [View.set_slice_whole, Rect.mem_set_unit]
  exact Iff.rfl

/-- Column `p` of a result lies in the block of point `p / 8192`: the sixteen blocks tile the array. -/
theorem cover_down (i : S8x131072.Idx) :
    ∃ t : Fin cfg0.N, (cfg0.win 3).flush t = true ∧ i ∈ ((cfg0.win 3).blk t).view.set := by
  have h0 : (i 0).val < 8 := (i 0).isLt
  have h1 : (i 1).val < 131072 := (i 1).isLt
  have hN : cfg0.N = 16 := N_0
  obtain ⟨t, ht⟩ : ∃ t : Fin cfg0.N, t.val = (i 1).val / 8192 := ⟨⟨(i 1).val / 8192, by rw [hN]; omega⟩, rfl⟩
  obtain ⟨-, -, -, -, -, -, e0, e1, -⟩ := idx_facts t
  refine ⟨t, flush0_3 t, ?_⟩
  rw [mem_blk_down]
  intro a
  match a with
  | ⟨0, _⟩ => show win0_3.index t (0 : Fin 2) * 8 ≤ (i 0).val ∧ (i 0).val < win0_3.index t (0 : Fin 2) * 8 + 8; omega
  | ⟨1, _⟩ => show win0_3.index t (1 : Fin 2) * 8192 ≤ (i 1).val ∧ (i 1).val < win0_3.index t (1 : Fin 2) * 8192 + 8192; omega
theorem cover_up (i : S8x131072.Idx) :
    ∃ t : Fin cfg0.N, (cfg0.win 4).flush t = true ∧ i ∈ ((cfg0.win 4).blk t).view.set := by
  have h0 : (i 0).val < 8 := (i 0).isLt
  have h1 : (i 1).val < 131072 := (i 1).isLt
  have hN : cfg0.N = 16 := N_0
  obtain ⟨t, ht⟩ : ∃ t : Fin cfg0.N, t.val = (i 1).val / 8192 := ⟨⟨(i 1).val / 8192, by rw [hN]; omega⟩, rfl⟩
  obtain ⟨-, -, -, -, -, -, -, -, e0, e1⟩ := idx_facts t
  refine ⟨t, flush0_4 t, ?_⟩
  rw [mem_blk_up]
  intro a
  match a with
  | ⟨0, _⟩ => show win0_4.index t (0 : Fin 2) * 8 ≤ (i 0).val ∧ (i 0).val < win0_4.index t (0 : Fin 2) * 8 + 8; omega
  | ⟨1, _⟩ => show win0_4.index t (1 : Fin 2) * 8192 ≤ (i 1).val ∧ (i 1).val < win0_4.index t (1 : Fin 2) * 8192 + 8192; omega

/-- After the call the first result array is the flat weights generated from the first table, -/
theorem final_down (c : Dev nD) : (dat0 V c).arrAt 3 cfg0.N = weights (V c main_arg1) (V c main_arg2) :=
  (dat0 V c).arrAt_eq_of_cover 3 (weights (V c main_arg1) (V c main_arg2)) (fun t _ => flushed_down V c t) cover_down

/-- and the second the flat weights generated from the second table. -/
theorem final_up (c : Dev nD) : (dat0 V c).arrAt 4 cfg0.N = weights (V c main_arg1) (V c main_arg3) :=
  (dat0 V c).arrAt_eq_of_cover 4 (weights (V c main_arg1) (V c main_arg3)) (fun t _ => flushed_up V c t) cover_up

end Cert.KernelIdeal.GenCall

end
-- ==== Proof.Handoff.lean ====
/-
  What the main call finds when it is entered.

  Between the two pallas_calls the program only reshapes: the first flat weight array `[8, 131072]` becomes the
  down-projection `[8, 1024, 128]`, the second the up-projection `[8, 128, 1024]`.  A reshape keeps the row-major
  position, so entry `(b, d, l)` of the first is the flat entry `(b, 128·d + l)` and entry `(b, l, o)` of the second
  the flat entry `(b, 1024·l + o)`: the cuts `down` and `up` of `Spec.lean`.  The activations are untouched by
  everything before the main call.  So the main call's three inputs are `x`, `down (weights key Td)` and
  `up (weights key Tu)` of the launch contents.
-/
import proofs.«158786_j29686813950417_1_alg».proof.Proof.Gen.KernelIdeal.Frame
import proofs.«158786_j29686813950417_1_alg».proof.Proof.GenCall
import Idealize.ShloMosaic.Lib.StableHlo.Run
import Idealize.ShloMosaic.Lib.Pipeline.Value

set_option maxRecDepth 16384

noncomputable section

namespace Cert.KernelIdeal.Handoff

open Cert.KernelIdeal Cert.KernelIdeal.Gen Cert.HyperMlp
open Idealize.ShloMosaic Idealize.ShloMosaic.TcCoe Idealize.ShloMosaic.ValueIdx Idealize.SL.Sem
open Idealize.ShloMosaic.StableHlo

/-! ## The two reshapes, index by index -/

/-- The flat rows reshaped to `[8, 1024, 128]`: position `(b·1024 + d)·128 + l` is `b·131072 + (128·d + l)`. -/
theorem reshape_down (W : S8x131072.Idx → EReal) :
    shapeCast S8x1024x128 W shapeCasts_S8x131072_S8x1024x128 = down W := by
  funext i
  obtain ⟨b, d, l, rfl⟩ : ∃ (b : Fin 8) (d : Fin 1024) (l : Fin 128), i = ix3 b d l := ⟨i 0, i 1, i 2, eq_ix3 i⟩
  refine (shapeCast_apply W shapeCasts_S8x131072_S8x1024x128 (ix3 b d l) (ix2 b (downPos d l)) ?_).trans rfl
  rw [Shape.rowMajor_val_two, Shape.rowMajor_val_three]
  show b.val * 131072 + (d.val * 128 + l.val) = (b.val * 1024 + d.val) * 128 + l.val
  omega

/-- The flat rows reshaped to `[8, 128, 1024]`: position `(b·128 + l)·1024 + o` is `b·131072 + (1024·l + o)`. -/
theorem reshape_up (W : S8x131072.Idx → EReal) :
    shapeCast S8x128x1024 W shapeCasts_S8x131072_S8x128x1024 = up W := by
  funext i
  obtain ⟨b, l, o, rfl⟩ : ∃ (b : Fin 8) (l : Fin 128) (o : Fin 1024), i = ix3 b l o := ⟨i 0, i 1, i 2, eq_ix3 i⟩
  refine (shapeCast_apply W shapeCasts_S8x131072_S8x128x1024 (ix3 b l o) (ix2 b (upPos l o)) ?_).trans rfl
  rw [Shape.rowMajor_val_two, Shape.rowMajor_val_three]
  show b.val * 131072 + (l.val * 1024 + o.val) = (b.val * 128 + l.val) * 1024 + o.val
  omega

/-! ## The main call's inputs -/

variable (m : (ℓ : Loc nD τ sig) → Buf (Elt Ideal) ℓ) (ρ : Dev nD → PrngReg)

/-- After the first call its two result arrays are the flat weights of the launch contents. -/
theorem flat_down (c : Dev nD) :
    (W1 m ρ c (Proc.devRef .tc main_v0_0) : S8x131072.Idx → EReal)
      = weights (m ((c : Thread nD τ).loc main_arg1)) (m ((c : Thread nD τ).loc main_arg2)) :=
  (W1_arr m ρ c 3).trans (GenCall.final_down (V0 m ρ) c)
theorem flat_up (c : Dev nD) :
    (W1 m ρ c (Proc.devRef .tc main_v0_1) : S8x131072.Idx → EReal)
      = weights (m ((c : Thread nD τ).loc main_arg1)) (m ((c : Thread nD τ).loc main_arg3)) :=
  (W1_arr m ρ c 4).trans (GenCall.final_up (V0 m ρ) c)

/-- The main call is entered with the activations as launched, -/
theorem entry_x (c : Dev nD) : V2 m ρ c main_arg0 = m ((c : Thread nD τ).loc main_arg0) :=
  (((W3_arr m ρ c 0).trans (((dat1 (V2 m ρ) c).arrAt_in 0 rfl _).trans (A_eq1 (V2 m ρ) c 0))).symm).trans (W3_main_arg0 m ρ c)

/-- with the down-projection cut out of the first flat weights, -/
theorem entry_down (c : Dev nD) :
    (V2 m ρ c main_v1 : S8x1024x128.Idx → EReal)
      = down (weights (m ((c : Thread nD τ).loc main_arg1)) (m ((c : Thread nD τ).loc main_arg2))) := by
  show StableHlo.after hostOps1 (W1 m ρ c) (Proc.devRef .tc main_v1) = _
  after_results
  rw [flat_down m ρ c]
  exact reshape_down _

/-- and with the up-projection cut out of the second. -/
theorem entry_up (c : Dev nD) :
    (V2 m ρ c main_v2 : S8x128x1024.Idx → EReal)
      = up (weights (m ((c : Thread nD τ).loc main_arg1)) (m ((c : Thread nD τ).loc main_arg3))) := by
  show StableHlo.after hostOps1 (W1 m ρ c) (Proc.devRef .tc main_v2) = _
  after_results
  rw [flat_up m ρ c]
  exact reshape_up _

end Cert.KernelIdeal.Handoff

end
-- ==== Proof.MainBody.lean ====
/-
  The main kernel's stored block, read at one index.

  The body of the main kernel loads three blocks, the activations `x0 : [1, 1024, 1024]`, a down-projection
  `x1 : [1, 1024, 128]` and an up-projection `x2 : [1, 128, 1024]`, drops the leading unit axis of each, rounds
  them to bf16 (the identity on extended reals), and stores

      out[u, r, o] = ∑ l < 128, max (∑ d < 1024, x0[0, r, d] · x1[0, d, l]) 0 · x2[0, l, o].

  Both products are matrix products into a zero accumulator that contract axis 1 of the left operand with
  axis 0 of the right one.  Section 1 reads each set of dimension numbers coordinate by coordinate: at the
  result index `(r, c)` and contraction position `k` the left operand is read at `(r, k)` and the right one
  at `(k, c)`.  Section 2 turns this into the entry of each product as a plain sum over `k`.  Section 3
  chains the two products, the rectifier between them and the four shape casts into the displayed formula.
-/
import proofs.«158786_j29686813950417_1_alg».proof.Proof.Gen.KernelIdeal.Skeleton
import proofs.«158786_j29686813950417_1_alg».proof.Proof.Spec
import proofs.«158786_j29686813950417_1_alg».proof.Proof.LibContract
import Idealize.ShloMosaic.Lib.ValueLayout
import Idealize.ShloMosaic.Lib.ValueIdx
import Idealize.ShloMosaic.PureOps.Ideal.Laws

noncomputable section

namespace Cert.KernelIdeal.MainBody

open Cert.KernelIdeal Cert.KernelIdeal.Gen Idealize.ShloMosaic Idealize.ShloMosaic.ValueIdx

/-! ## 1. The dimension numbers, coordinate by coordinate -/

/-- First product, left operand, row coordinate: the result's row. -/
theorem lhs_down_0 (i : S1024x128.Idx) (q : dot_S1024x1024_S1024x128_S1024x128_1_0_0_1_n_n.contr.Idx) :
    (dot_S1024x1024_S1024x128_S1024x128_1_0_0_1_n_n.lhsIdx i q 0).val = (i 0).val := by
  unfold DotDims.lhsIdx
  rw [dif_neg (show ¬(0 : Fin S1024x1024.rank) ∈ dot_S1024x1024_S1024x128_S1024x128_1_0_0_1_n_n.lhsBatch by decide),
    dif_pos (show (0 : Fin S1024x1024.rank) ∈ dot_S1024x1024_S1024x128_S1024x128_1_0_0_1_n_n.lhsNonContracting by decide)]
  rfl

/-- First product, left operand, column coordinate: the contraction position. -/
theorem lhs_down_1 (i : S1024x128.Idx) (q : dot_S1024x1024_S1024x128_S1024x128_1_0_0_1_n_n.contr.Idx) :
    (dot_S1024x1024_S1024x128_S1024x128_1_0_0_1_n_n.lhsIdx i q 1).val = (q ⟨0, by decide⟩).val :=
  dot_S1024x1024_S1024x128_S1024x128_1_0_0_1_n_n.lhsIdx_val_of_single rfl i q

/-- First product, right operand, row coordinate: the contraction position. -/
theorem rhs_down_0 (i : S1024x128.Idx) (q : dot_S1024x1024_S1024x128_S1024x128_1_0_0_1_n_n.contr.Idx) :
    (dot_S1024x1024_S1024x128_S1024x128_1_0_0_1_n_n.rhsIdx i q 0).val = (q ⟨0, by decide⟩).val :=
  dot_S1024x1024_S1024x128_S1024x128_1_0_0_1_n_n.rhsIdx_val_of_single rfl i q

/-- First product, right operand, column coordinate: the result's column. -/
theorem rhs_down_1 (i : S1024x128.Idx) (q : dot_S1024x1024_S1024x128_S1024x128_1_0_0_1_n_n.contr.Idx) :
    (dot_S1024x1024_S1024x128_S1024x128_1_0_0_1_n_n.rhsIdx i q 1).val = (i 1).val := by
  unfold DotDims.rhsIdx
  rw [dif_neg (show ¬(1 : Fin S1024x128.rank) ∈ dot_S1024x1024_S1024x128_S1024x128_1_0_0_1_n_n.rhsBatch by decide),
    dif_pos (show (1 : Fin S1024x128.rank) ∈ dot_S1024x1024_S1024x128_S1024x128_1_0_0_1_n_n.rhsNonContracting by decide)]
  rfl

/-- Second product, left operand, row coordinate: the result's row. -/
theorem lhs_up_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide),
    dif_pos (show (0 : Fin S1024x128.rank) ∈ dot_S1024x128_S128x1024_S1024x1024_1_0_0_1_n_n.lhsNonContracting by decide)]
  rfl

/-- Second product, left operand, column coordinate: the contraction position. -/
theorem lhs_up_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q

/-- Second product, right operand, row coordinate: the contraction position. -/
theorem rhs_up_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q

/-- Second product, right operand, column coordinate: the result's column. -/
theorem rhs_up_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide),
    dif_pos (show (1 : Fin S128x1024.rank) ∈ dot_S1024x128_S128x1024_S1024x1024_1_0_0_1_n_n.rhsNonContracting by decide)]
  rfl

/-! ## 2. Each product into zero, at an entry -/

/-- The first product into the zero accumulator, at `(r, c)`: `∑ k < 1024, lhs[r, k] · rhs[k, c]`. -/
theorem matmul_down_apply {φ₁ φ₂ : FTy} (prec : Option ContractPrecision)
    (lhs : FVec Ideal S1024x1024 φ₁) (rhs : FVec Ideal S1024x128 φ₂) (r : Fin 1024) (c : Fin 128) :
    matmul dot_S1024x1024_S1024x128_S1024x128_1_0_0_1_n_n prec lhs rhs (constant S1024x128 .f32 0x00000000#32) (ix2 r c)
      = ∑ k : Fin 1024, lhs (ix2 r k) * rhs (ix2 k c) :=
  Cert.LibContract.matmul_zero_single dot_S1024x1024_S1024x128_S1024x128_1_0_0_1_n_n prec 1024 rfl rfl lhs rhs (ix2 r c)
    (fun k => ix2 r k) (fun k => ix2 k c)
    (fun k => funext fun a => Fin.ext (by
      have hk := contrEquiv1_symm_val dot_S1024x1024_S1024x128_S1024x128_1_0_0_1_n_n 1024 rfl rfl k
      match a with
      | ⟨0, _⟩ => exact lhs_down_0 _ _
      | ⟨1, _⟩ => exact (lhs_down_1 _ _).trans hk))
    (fun k => funext fun a => Fin.ext (by
      have hk := contrEquiv1_symm_val dot_S1024x1024_S1024x128_S1024x128_1_0_0_1_n_n 1024 rfl rfl k
      match a with
      | ⟨0, _⟩ => exact (rhs_down_0 _ _).trans hk
      | ⟨1, _⟩ => exact rhs_down_1 _ _))

/-- The second product into the zero accumulator, at `(r, c)`: `∑ k < 128, lhs[r, k] · rhs[k, c]`. -/
theorem matmul_up_apply {φ₁ φ₂ : FTy} (prec : Option ContractPrecision)
    (lhs : FVec Ideal S1024x128 φ₁) (rhs : FVec Ideal S128x1024 φ₂) (r : Fin 1024) (c : Fin 1024) :
    matmul dot_S1024x128_S128x1024_S1024x1024_1_0_0_1_n_n prec lhs rhs (constant S1024x1024 .f32 0x00000000#32) (ix2 r c)
      = ∑ k : Fin 128, lhs (ix2 r k) * rhs (ix2 k c) :=
  Cert.LibContract.matmul_zero_single dot_S1024x128_S128x1024_S1024x1024_1_0_0_1_n_n prec 128 rfl rfl lhs rhs (ix2 r c)
    (fun k => ix2 r k) (fun k => ix2 k c)
    (fun k => funext fun a => Fin.ext (by
      have hk := contrEquiv1_symm_val dot_S1024x128_S128x1024_S1024x1024_1_0_0_1_n_n 128 rfl rfl k
      match a with
      | ⟨0, _⟩ => exact lhs_up_0 _ _
      | ⟨1, _⟩ => exact (lhs_up_1 _ _).trans hk))
    (fun k => funext fun a => Fin.ext (by
      have hk := contrEquiv1_symm_val dot_S1024x128_S128x1024_S1024x1024_1_0_0_1_n_n 128 rfl rfl k
      match a with
      | ⟨0, _⟩ => exact (rhs_up_0 _ _).trans hk
      | ⟨1, _⟩ => exact rhs_up_1 _ _))

/-! ## 3. The stored block at an index -/

/-- The block the main kernel stores, at `(u, r, o)`: the rectified first product times the up-projection,
    summed over the hidden coordinate. -/
theorem pay_apply (x0 : Vec Ideal S1x1024x1024 .f32) (x1 : Vec Ideal S1x1024x128 .f32) (x2 : Vec Ideal S1x128x1024 .f32)
    (u : Fin 1) (r : Fin 1024) (o : Fin 1024) :
    k1_pay1 (F := Ideal) x0 x1 x2 (ix3 u r o)
      = ∑ l : Fin 128, max (∑ d : Fin 1024, x0 (ix3 (0 : Fin 1) r d) * x1 (ix3 (0 : Fin 1) d l)) Cert.HyperMlp.zero
          * x2 (ix3 (0 : Fin 1) l o) := by
  unfold k1_pay1
  refine (shapeCast_ab_1ab_apply _ shapeCasts_S1024x1024_S1x1024x1024 u r o).trans ?_
  refine (matmul_up_apply none _ _ r o).trans ?_
  refine Finset.sum_congr rfl fun l _ => ?_
  rw [truncf_apply, maximumf_apply, broadcast_apply, matmul_down_apply none _ _ r l, truncf_apply,
    shapeCast_1ab_ab_apply x2 shapeCasts_S1x128x1024_S128x1024 l o]
  refine congrArg (fun t => max t Cert.HyperMlp.zero * x2 (ix3 (0 : Fin 1) l o)) ?_
  refine Finset.sum_congr rfl fun d _ => ?_
  rw [truncf_apply, truncf_apply, shapeCast_1ab_ab_apply x0 shapeCasts_S1x1024x1024_S1024x1024 r d,
    shapeCast_1ab_ab_apply x1 shapeCasts_S1x1024x128_S1024x128 d l]

end Cert.KernelIdeal.MainBody

end
-- ==== Proof.MainCall.lean ====
/-
  The second pallas_call: the result.

  Its grid is `8 × 2`: point `t` is sample `b = t / 2` and sequence half `h = t % 2`.  At that point it stages rows
  `1024·h … 1024·h + 1023` of sample `b`'s activations and the whole down- and up-projection of sample `b`, and
  writes the `[1, 1024, 1024]` block of the result at the same place as the activations' block.  The body's stored
  block is read at an index in `MainBody.lean`; with the three staged blocks read where they sit in their arrays,
  its entry `(0, r, o)` is the entry `(b, 1024·h + r, o)` of `output (hidden x D) U` of `Spec.lean`.  The sixteen
  blocks tile the `[8, 2048, 1024]` result, so after the call the result array is that function of the three
  arrays the call was entered with.  Everything is stated at arbitrary entry contents `V`.
-/
import proofs.«158786_j29686813950417_1_alg».proof.Proof.Gen.KernelIdeal.Frame
import proofs.«158786_j29686813950417_1_alg».proof.Proof.Spec
import proofs.«158786_j29686813950417_1_alg».proof.Proof.MainBody
import Idealize.ShloMosaic.Lib.Pipeline.Value

set_option maxRecDepth 16384

noncomputable section

namespace Cert.KernelIdeal.MainCall

open Cert.KernelIdeal Cert.KernelIdeal.Gen Cert.HyperMlp
open Idealize.ShloMosaic Idealize.ShloMosaic.TcCoe Idealize.ShloMosaic.ValueIdx Idealize.SL.Sem
open Idealize.ShloMosaic.Pipeline (Dat)

/-! ## One point of the grid, over plain arrays -/

/-- If the staged activations `xb` are rows `s0 …` of sample `b` of `x`, and the staged projections `Db`, `Ub` are
    sample `b`'s slices of `D` and `U`, then the stored block at `j = (0, r, o)` is the result at
    `i = (b, s0 + r, o)`. -/
theorem point_entry (x : SX.Idx → EReal) (D : SD.Idx → EReal) (U : SU.Idx → EReal) (b : Fin 8) (s0 : ℕ)
    (xb : Vec Ideal S1x1024x1024 .f32) (Db : Vec Ideal S1x1024x128 .f32) (Ub : Vec Ideal S1x128x1024 .f32)
    (hx : ∀ (r : Fin 1024) (d : Fin 1024) (s : Fin 2048), s.val = s0 + r.val → xb (ix3 (0 : Fin 1) r d) = x (ix3 b s d))
    (hD : ∀ (d : Fin 1024) (l : Fin 128), Db (ix3 (0 : Fin 1) d l) = D (ix3 b d l))
    (hU : ∀ (l : Fin 128) (o : Fin 1024), Ub (ix3 (0 : Fin 1) l o) = U (ix3 b l o))
    (j : S1x1024x1024.Idx) (i : SX.Idx) (hi0 : (i 0).val = b.val) (hi1 : (i 1).val = s0 + (j 1).val)
    (hi2 : (i 2).val = (j 2).val) :
    k1_pay1 (F := Ideal) xb Db Ub j = output (HyperMlp.hidden x D) U i := by
  obtain ⟨u, r, o, rfl⟩ : ∃ (u : Fin 1) (r : Fin 1024) (o : Fin 1024), j = ix3 u r o := ⟨j 0, j 1, j 2, eq_ix3 j⟩
  obtain ⟨b', s, o', rfl⟩ : ∃ (b' : Fin 8) (s : Fin 2048) (o' : Fin 1024), i = ix3 b' s o' := ⟨i 0, i 1, i 2, eq_ix3 i⟩
  obtain rfl : b' = b := Fin.ext hi0
  obtain rfl : o' = o := Fin.ext hi2
  rw [MainBody.pay_apply]
  show _ = ∑ l : Fin 128, max (∑ d : Fin 1024, x (ix3 b' s d) * D (ix3 b' d l)) zero * U (ix3 b' l o')
  refine Finset.sum_congr rfl fun l _ => ?_
  rw [hU l o']
  refine congrArg (fun v => max v zero * U (ix3 b' l o')) ?_
  exact Finset.sum_congr rfl fun d _ => by rw [hx r d s hi1, hD d l]

/-! ## The call, at arbitrary entry contents -/

variable (V : (c : Dev nD) → (b : Ref sig .tc) → Buf (Elt Ideal) ((c : Thread nD τ).loc b))

theorem hz : (![0, 0, 0] : Fin 3 → Nat) = fun _ => 0 := funext fun a => by fin_cases a <;> rfl

/-- The printed index maps over the sixteen points `t = 2·b + h`: the activations' and the result's block index is
    `(b, h, 0)`, each projection's `(b, 0, 0)`. -/
theorem idx_facts : ∀ t : Fin cfg1.N,
    win1_0.index t (0 : Fin 3) = t.val / 2 ∧ win1_0.index t (1 : Fin 3) = t.val % 2 ∧ win1_0.index t (2 : Fin 3) = 0
    ∧ win1_1.index t (0 : Fin 3) = t.val / 2 ∧ win1_1.index t (1 : Fin 3) = 0 ∧ win1_1.index t (2 : Fin 3) = 0
    ∧ win1_2.index t (0 : Fin 3) = t.val / 2 ∧ win1_2.index t (1 : Fin 3) = 0 ∧ win1_2.index t (2 : Fin 3) = 0
    ∧ win1_3.index t (0 : Fin 3) = t.val / 2 ∧ win1_3.index t (1 : Fin 3) = t.val % 2 ∧ win1_3.index t (2 : Fin 3) = 0 :=
  (by decide +kernel : ∀ t : Fin grid1.N, _)

/-- The sample a point works on. -/
theorem sample_lt (t : Fin cfg1.N) : t.val / 2 < 8 := by
  have ht : t.val < 16 := lt_of_lt_of_eq t.isLt N_1
  omega

/-- The staged activations are rows `1024·h …` of sample `b`. -/
theorem x_block (c : Dev nD) (t : Fin cfg1.N) (r : Fin 1024) (d : Fin 1024) (s : Fin 2048)
    (hs : s.val = t.val % 2 * 1024 + r.val) :
    (iblk1 V c 0 t : Vec Ideal S1x1024x1024 .f32) (ix3 (0 : Fin 1) r d)
      = (V c main_arg0 : S8x2048x1024.Idx → EReal) (ix3 (⟨t.val / 2, sample_lt t⟩ : Fin 8) s d) := by
  obtain ⟨e0, e1, e2, -⟩ := idx_facts t
  unfold iblk1
  rw [View.read_apply]
  show (V c main_arg0 : S8x2048x1024.Idx → EReal) (((cfg1.win 0).blk t).view.emb (ix3 (0 : Fin 1) r d)) = _
  refine congrArg (V c main_arg0 : S8x2048x1024.Idx → EReal) (funext fun a => Fin.ext ?_)
  match a with
  | ⟨0, _⟩ => show win1_0.index t (0 : Fin 3) * 1 + 1 * 0 = t.val / 2; omega
  | ⟨1, _⟩ => show win1_0.index t (1 : Fin 3) * 1024 + 1 * r.val = s.val; omega
  | ⟨2, _⟩ => show win1_0.index t (2 : Fin 3) * 1024 + 1 * d.val = d.val; omega

/-- The staged down-projection is sample `b`'s. -/
theorem down_block (c : Dev nD) (t : Fin cfg1.N) (d : Fin 1024) (l : Fin 128) :
    (iblk1 V c 1 t : Vec Ideal S1x1024x128 .f32) (ix3 (0 : Fin 1) d l)
      = (V c main_v1 : S8x1024x128.Idx → EReal) (ix3 (⟨t.val / 2, sample_lt t⟩ : Fin 8) d l) := by
  obtain ⟨-, -, -, e0, e1, e2, -⟩ := idx_facts t
  unfold iblk1
  rw [View.read_apply]
  show (V c main_v1 : S8x1024x128.Idx → EReal) (((cfg1.win 1).blk t).view.emb (ix3 (0 : Fin 1) d l)) = _
  refine congrArg (V c main_v1 : S8x1024x128.Idx → EReal) (funext fun a => Fin.ext ?_)
  match a with
  | ⟨0, _⟩ => show win1_1.index t (0 : Fin 3) * 1 + 1 * 0 = t.val / 2; omega
  | ⟨1, _⟩ => show win1_1.index t (1 : Fin 3) * 1024 + 1 * d.val = d.val; omega
  | ⟨2, _⟩ => show win1_1.index t (2 : Fin 3) * 128 + 1 * l.val = l.val; omega

/-- The staged up-projection is sample `b`'s. -/
theorem up_block (c : Dev nD) (t : Fin cfg1.N) (l : Fin 128) (o : Fin 1024) :
    (iblk1 V c 2 t : Vec Ideal S1x128x1024 .f32) (ix3 (0 : Fin 1) l o)
      = (V c main_v2 : S8x128x1024.Idx → EReal) (ix3 (⟨t.val / 2, sample_lt t⟩ : Fin 8) l o) := by
  obtain ⟨-, -, -, -, -, -, e0, e1, e2, -⟩ := idx_facts t
  unfold iblk1
  rw [View.read_apply]
  show (V c main_v2 : S8x128x1024.Idx → EReal) (((cfg1.win 2).blk t).view.emb (ix3 (0 : Fin 1) l o)) = _
  refine congrArg (V c main_v2 : S8x128x1024.Idx → EReal) (funext fun a => Fin.ext ?_)
  match a with
  | ⟨0, _⟩ => show win1_2.index t (0 : Fin 3) * 1 + 1 * 0 = t.val / 2; omega
  | ⟨1, _⟩ => show win1_2.index t (1 : Fin 3) * 128 + 1 * l.val = l.val; omega
  | ⟨2, _⟩ => show win1_2.index t (2 : Fin 3) * 1024 + 1 * o.val = o.val; omega

/-- What point `t` writes back is block `t` of the result computed from the arrays the call was entered with. -/
theorem flushed_out (c : Dev nD) (t : Fin cfg1.N) :
    (dat1 V c).flushed 3 t = ((cfg1.win 3).blk t).view.read (Elt Ideal)
      (output (HyperMlp.hidden (V c main_arg0) (V c main_v1)) (V c main_v2)) := by
  show (cfg1.win 3).cut (grid1.coords t) ((dat1 V c).after 3 t) = _
  rw [after1_3]
  unfold out1_3
  rw [View.canon_unit_zero hz]
  simp only [View.ld_unit_zero (S := S1x1024x1024) hz, View.ld_unit_zero (S := S1x1024x128) hz,
    View.ld_unit_zero (S := S1x128x1024) hz]
  obtain ⟨-, -, -, -, -, -, -, -, -, e0, e1, e2⟩ := idx_facts t
  funext j
  have hj0 : (j 0).val < 1 := (j 0).isLt
  refine point_entry (V c main_arg0) (V c main_v1) (V c main_v2) (⟨t.val / 2, sample_lt t⟩ : Fin 8) (t.val % 2 * 1024)
    (iblk1 V c 0 t) (iblk1 V c 1 t) (iblk1 V c 2 t) (x_block V c t) (down_block V c t) (up_block V c t)
    j (((cfg1.win 3).blk t).view.emb j) ?_ ?_ ?_
  · show win1_3.index t (0 : Fin 3) * 1 + 1 * (j 0).val = t.val / 2; omega
  · show win1_3.index t (1 : Fin 3) * 1024 + 1 * (j 1).val = t.val % 2 * 1024 + (j 1).val; omega
  · show win1_3.index t (2 : Fin 3) * 1024 + 1 * (j 2).val = (j 2).val; omega

/-- An index of the result is in point `t`'s block iff each coordinate is in the block's range. -/
theorem mem_blk_out (t : Fin cfg1.N) (i : S8x2048x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v3).slice (win1_3.rect t)).set ↔ _
  rw [View.set_slice_whole, Rect.mem_set_unit]
  exact Iff.rfl

/-- Entry `(b, s, o)` of the result lies in the block of point `2·b + s / 1024`: the sixteen blocks tile the array. -/
theorem cover_out (i : S8x2048x1024.Idx) :
    ∃ t : Fin cfg1.N, (cfg1.win 3).flush t = true ∧ i ∈ ((cfg1.win 3).blk t).view.set := by
  have h0 : (i 0).val < 8 := (i 0).isLt
  have h1 : (i 1).val < 2048 := (i 1).isLt
  have h2 : (i 2).val < 1024 := (i 2).isLt
  have hN : cfg1.N = 16 := N_1
  obtain ⟨t, ht⟩ : ∃ t : Fin cfg1.N, t.val = (i 0).val * 2 + (i 1).val / 1024 :=
    ⟨⟨(i 0).val * 2 + (i 1).val / 1024, by rw [hN]; omega⟩, rfl⟩
  obtain ⟨-, -, -, -, -, -, -, -, -, e0, e1, e2⟩ := idx_facts t
  refine ⟨t, flush1_3 t, ?_⟩
  rw [mem_blk_out]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-- After the call the result array is `output (hidden x D) U` of the arrays the call was entered with. -/
theorem final_out (c : Dev nD) :
    (dat1 V c).arrAt 3 cfg1.N = output (HyperMlp.hidden (V c main_arg0) (V c main_v1)) (V c main_v2) :=
  (dat1 V c).arrAt_eq_of_cover 3 (output (HyperMlp.hidden (V c main_arg0) (V c main_v1)) (V c main_v2))
    (fun t _ => flushed_out V c t) cover_out

end Cert.KernelIdeal.MainCall

end
-- ==== Proof.Whole.lean ====
/-
  The kernel program's result as one function of its arguments.

  The run leaves in the result buffer what the main call's write-backs leave (`Run.lean`); that is
  `output (hidden x D) U` of the three arrays the main call is entered with (`MainCall.lean`); and those are the
  activations as launched and the down- and up-projection cut out of the flat weights the first call generated from
  the key and the two tables as launched (`Handoff.lean`, `GenCall.lean`).  Composed, the result array is
  `HyperMlp.result x key Td Tu` of the launch contents.
-/
import proofs.«158786_j29686813950417_1_alg».proof.Proof.Run
import proofs.«158786_j29686813950417_1_alg».proof.Proof.Handoff
import proofs.«158786_j29686813950417_1_alg».proof.Proof.MainCall

set_option maxRecDepth 16384

noncomputable section

namespace Cert.KernelIdeal.Whole

open Cert.KernelIdeal Cert.KernelIdeal.Gen Cert.HyperMlp
open Idealize.ShloMosaic Idealize.ShloMosaic.TcCoe Idealize.SL.Sem

variable (m : (ℓ : Loc nD τ sig) → Buf (Elt Ideal) ℓ) (ρ : Dev nD → PrngReg)

/-- The contents of the result buffer at the end of the run are the specification's function of the launch
    contents of the four arguments. -/
theorem result_eq (c : Dev nD) :
    W3 m ρ c (Proc.devRef .tc main_v3)
      = HyperMlp.result (m ((c.tc : Thread nD τ).loc main_arg0)) (m ((c.tc : Thread nD τ).loc main_arg1))
          (m ((c.tc : Thread nD τ).loc main_arg2)) (m ((c.tc : Thread nD τ).loc main_arg3)) := by
  refine (Result.W3_result m ρ c).trans ((MainCall.final_out (V2 m ρ) c).trans ?_)
  rw [Handoff.entry_x m ρ c, Handoff.entry_down m ρ c, Handoff.entry_up m ρ c]
  rfl

/-- Every weakly fair execution of the kernel program terminates without a fault, with the result array at the
    specification's function of the arguments and the arguments unchanged. -/
theorem run : θ_run defs (onTc (τ := τ) (main (F := Ideal))) ⟨m, fun _ => 0, ρ⟩ (fun r => ∀ c : Dev nD,
      r.2.mem ((c.tc : Thread nD τ).loc main_v3)
        = HyperMlp.result (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans (result_eq m ρ c), (h c).2⟩) (Result.run m ρ)

end Cert.KernelIdeal.Whole

end
-- ==== Proof.lean ====
/-
  A hypernetwork-generated low-rank layer, as a Pallas kernel program and as its jnp reference.

  Both programs compute, over the extended reals, the function `Cert.HyperMlp.result` of `Proof/Spec.lean`: each
  sample's key generates two flat weight rows by a contraction with the two weight tables; the rows are cut into a
  down- and an up-projection; the activations are projected down, rectified, and projected up.  The kernel program
  does this in two pallas_calls with two reshapes between them, the reference in four contractions, two reshapes and
  a maximum.  The two sides are the same sums in the same order of factors, so no algebraic law is needed beyond
  matching indices, and the finiteness precondition is never opened.

  The modules:
    * `Proof/Spec.lean`         the function both sides compute;
    * `Proof/LibContract.lean`  a matrix product into zero, read at an entry, for any dimension numbers;
    * `Proof/RefIsSpec.lean`    the reference's last stage is the specification;
    * `Proof/Run.lean`          the kernel program's run, read at the result buffer;
    * `Proof/GenCall.lean`      the first call leaves the flat weights in its two results;
    * `Proof/Handoff.lean`      the reshapes between the calls are the two cuts;
    * `Proof/MainBody.lean`     the main kernel's stored block at an index;
    * `Proof/MainCall.lean`     the main call leaves `output (hidden x D) U` in the result;
    * `Proof/Whole.lean`        the kernel program's result as one function of its arguments.

  The three frames are the generated ones (the reference's is its generated run with the result dropped); the
  idealization rewrote nothing, so `preserves` is `True`.
-/
import proofs.«158786_j29686813950417_1_alg».proof.Defs
import proofs.«158786_j29686813950417_1_alg».proof.Proof.Gen.Kernel
import proofs.«158786_j29686813950417_1_alg».proof.Proof.Gen.Kernel.Skeleton
import proofs.«158786_j29686813950417_1_alg».proof.Proof.Gen.Kernel.Launch
import proofs.«158786_j29686813950417_1_alg».proof.Proof.Gen.Kernel.Points
import proofs.«158786_j29686813950417_1_alg».proof.Proof.Gen.Kernel.Frame
import proofs.«158786_j29686813950417_1_alg».proof.Proof.Gen.KernelIdeal
import proofs.«158786_j29686813950417_1_alg».proof.Proof.Gen.KernelIdeal.Skeleton
import proofs.«158786_j29686813950417_1_alg».proof.Proof.Gen.KernelIdeal.Launch
import proofs.«158786_j29686813950417_1_alg».proof.Proof.Gen.KernelIdeal.Points
import proofs.«158786_j29686813950417_1_alg».proof.Proof.Gen.KernelIdeal.Frame
import proofs.«158786_j29686813950417_1_alg».proof.Proof.Gen.ReferenceIdeal
import proofs.«158786_j29686813950417_1_alg».proof.Proof.Gen.ReferenceIdeal.Run
import proofs.«158786_j29686813950417_1_alg».proof.Proof.Gen.ReferenceIdeal.Read
import proofs.«158786_j29686813950417_1_alg».proof.Proof.Gen.Pre_finite_inputs
import proofs.«158786_j29686813950417_1_alg».proof.Proof.RefIsSpec
import proofs.«158786_j29686813950417_1_alg».proof.Proof.Whole
import Idealize.ShloMosaic.Adequacy
import Idealize.ShloMosaic.Init

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and leaves its arguments unchanged: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the four arguments both programs end with the result array at
    `HyperMlp.result` of those arguments. -/
theorem algebraic : Cert.algebraic_KernelIdeal_ReferenceIdeal := by
  intro m ρ m' ρ' _ hagree
  refine ⟨fun c => Cert.HyperMlp.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
